-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  main_v3
-- ==== Kernel.lean ====
abbrev S4x4096x2048 : Shape := ⟨3, ![4, 4096, 2048]⟩
abbrev S4x1x2048 : Shape := ⟨3, ![4, 1, 2048]⟩
abbrev S_ : Shape := ⟨0, ![]⟩
abbrev S4x2048 : Shape := ⟨2, ![4, 2048]⟩

abbrev nBuf : Table → Nat
  | .hbm => 2
  | _ => 0

abbrev bufTy : (tb : Table) → Fin (nBuf tb) → BufTy
  | .hbm, ⟨0, _⟩ => ⟨S4x4096x2048, .f32⟩
  | .hbm, ⟨1, _⟩ => ⟨S4x1x2048, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  inb_S4x1x2048_S4x1x2048_0_0_0 : ∀ a, (![0, 0, 0] : Fin 3 → Nat) a + S4x1x2048.size a ≤ S4x1x2048.size a
  squeezes_S4x1x2048_S4x2048 : S4x1x2048.Squeezes S4x2048
  inb_S4x4096x2048_S4x1x2048_0_0_0 : ∀ a, (![0, 0, 0] : Fin 3 → Nat) a + S4x1x2048.size a ≤ S4x4096x2048.size a
  hcc0_scratch0 : 0 + S_.numel ≤ 1
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scratch0 : DmaSems sig S_ := SemArray.consecutive 0 S_ hcc0_scratch0

class Facts : Prop extends Facts₀ where

variable [Facts]
-- ==== ReferenceIdeal.lean ====
abbrev S4x4096x2048 : Shape := ⟨3, ![4, 4096, 2048]⟩
abbrev S1 : Shape := ⟨1, ![1]⟩
abbrev S_ : Shape := ⟨0, ![]⟩
abbrev S1x1 : Shape := ⟨2, ![1, 1]⟩
abbrev S4x1x2048 : Shape := ⟨3, ![4, 1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1, .i32⟩
  | .hbm, ⟨2, _⟩ => ⟨S_, .i32⟩
  | .hbm, ⟨3, _⟩ => ⟨S1, .i32⟩
  | .hbm, ⟨4, _⟩ => ⟨S1, .i1⟩
  | .hbm, ⟨5, _⟩ => ⟨S_, .i32⟩
  | .hbm, ⟨6, _⟩ => ⟨S1, .i32⟩
  | .hbm, ⟨7, _⟩ => ⟨S1, .i32⟩
  | .hbm, ⟨8, _⟩ => ⟨S1, .i32⟩
  | .hbm, ⟨9, _⟩ => ⟨S1x1, .i32⟩
  | .hbm, ⟨10, _⟩ => ⟨S1, .i32⟩
  | .hbm, ⟨11, _⟩ => ⟨S_, .i32⟩
  | .hbm, ⟨12, _⟩ => ⟨S1x1, .i32⟩
  | .hbm, ⟨13, _⟩ => ⟨S1x1, .i1⟩
  | .hbm, ⟨14, _⟩ => ⟨S1x1, .i32⟩
  | .hbm, ⟨15, _⟩ => ⟨S1x1, .i1⟩
  | .hbm, ⟨16, _⟩ => ⟨S1x1, .i1⟩
  | .hbm, ⟨17, _⟩ => ⟨S_, .i1⟩
  | .hbm, ⟨18, _⟩ => ⟨S1, .i1⟩
  | .hbm, ⟨19, _⟩ => ⟨S4x1x2048, .f32⟩
  | .hbm, ⟨20, _⟩ => ⟨S4x1x2048, .i1⟩
  | .hbm, ⟨21, _⟩ => ⟨S_, .f32⟩
  | .hbm, ⟨22, _⟩ => ⟨S4x1x2048, .f32⟩
  | .hbm, ⟨23, _⟩ => ⟨S4x1x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_c_3 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_cst : Ref sig .tc := ⟨.hbm, 21, rfl⟩
abbrev main_call0_v14 : Ref sig .tc := ⟨.hbm, 22, rfl⟩
abbrev main_v0 : Ref sig .tc := ⟨.hbm, 23, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S4x1x2048_1 : S1.BroadcastsInDim S4x1x2048 (![1] : Fin 1 → Fin S4x1x2048.rank)
  bcast_S_S4x1x2048 : S_.BroadcastsInDim S4x1x2048 (![] : Fin 0 → Fin S4x1x2048.rank)
  gather_S4x4096x2048_S1x1_S4x1x2048_02_1_n_n_1_1_412048_wf : GatherDims.WF S4x4096x2048 S1x1 S4x1x2048 [0, 2] [1] [] [1] [] 1 ![4, 1, 2048]

variable [Facts₀]

def gather_S4x4096x2048_S1x1_S4x1x2048_02_1_n_n_1_1_412048 : GatherDims S4x4096x2048 S1x1 S4x1x2048 where
  offsetDims := [0, 2]
  collapsedSliceDims := [1]
  operandBatchingDims := []
  startIndicesBatchingDims := []
  startIndexMap := [1]
  indexVectorDim := 1
  sliceSizes := ![4, 1, 2048]
  wf := gather_S4x4096x2048_S1x1_S4x1x2048_02_1_n_n_1_1_412048_wf

class Facts : Prop extends Facts₀ where

variable [Facts]
-- ==== Proof.RowZero.lean ====
/-
  The specification: row 0 of every batch.

  From an array `u` over (batch, position, feature) of extents `[4, 4096, 2048]` the result over
  (batch, one position, feature) of extents `[4, 1, 2048]` keeps position 0 only: entry `(b, 0, d)` of the
  result is entry `(b, 0, d)` of `u`. Both programs compute this function; no arithmetic is done on the entries,
  so it is stated for any type of entries.
-/
import Idealize.ShloMosaic.Lib.ValueIdx

namespace Cert.RowZero

open Idealize.ShloMosaic Idealize.ShloMosaic.ValueIdx

/-- Position 0 of every batch of `u`. -/
def rowZero {α : Type} (u : (⟨3, ![4, 4096, 2048]⟩ : Shape).Idx → α) : (⟨3, ![4, 1, 2048]⟩ : Shape).Idx → α :=
  fun j => u (ix3 (j 0) (⟨0, by decide⟩ : Fin 4096) (j 2))

theorem rowZero_apply {α : Type} (u : (⟨3, ![4, 4096, 2048]⟩ : Shape).Idx → α) (b : Fin 4) (e : Fin 1) (d : Fin 2048) :
    rowZero u (ix3 b e d) = u (ix3 b (⟨0, by decide⟩ : Fin 4096) d) := rfl

end Cert.RowZero
-- ==== Proof.LibSqueezeMiddle.lean ====
/-
  A middle unit axis dropped and put back, read at an index.

  An array over (row, unit, column) of extents `[a, 1, b]` and an array over (row, column) of extents `[a, b]` hold
  the same entries in the same row-major order, so matching the two index sets by row-major position sends `(x, y)`
  to `(x, 0, y)`: position `(x · 1 + 0) · b + y` is position `x · b + y`.
-/
import Idealize.ShloMosaic.Lib.ValueIdx

namespace Cert.LibSqueezeMiddle

open Idealize.ShloMosaic Idealize.ShloMosaic.ValueIdx

/-- An index `(x, y)` of shape `[a, b]` matched with shape `[a, 1, b]` is `(x, 0, y)`. -/
theorem reshapeEquiv_ix2_a1b {a b : ℕ} (h : (⟨2, ![a, b]⟩ : Shape).numel = (⟨3, ![a, 1, b]⟩ : Shape).numel)
    (x : Fin a) (y : Fin b) : Shape.reshapeEquiv h (ix2 x y) = ix3 x (⟨0, Nat.one_pos⟩ : Fin 1) y :=
  Shape.reshapeEquiv_eq_of_rowMajor h (by
    rw [Shape.rowMajor_val_three, Shape.rowMajor_val_two]
    show ((x.val * 1 + 0) * b + y.val) = x.val * b + y.val
    simp only [Nat.mul_one, Nat.add_zero])

/-- Every index of shape `[a, 1, b]` is `(x, 0, y)` for its first and last coordinates. -/
theorem eq_ix3_mid_zero {a b : ℕ} (j : (⟨3, ![a, 1, b]⟩ : Shape).Idx) :
    j = ix3 (j 0) (⟨0, Nat.one_pos⟩ : Fin 1) (j 2) := by
  have h1 : (j 1).val = 0 := Nat.lt_one_iff.mp (show (j 1).val < 1 from (j 1).isLt)
  funext c; refine Fin.ext ?_
  match c with
  | ⟨0, _⟩ => rfl
  | ⟨1, _⟩ => exact h1
  | ⟨2, _⟩ => rfl

end Cert.LibSqueezeMiddle
-- ==== Proof.KernelCopy.lean ====
/-
  What the kernel's one copy leaves in the result array.

  The copy reads the source through the rows-0 slab of `u` with its unit axis dropped — a `[4, 2048]` view whose
  entry `(b, d)` is `u`'s entry `(b, 0, d)` — and writes through the whole result array with its unit axis dropped,
  whose entry `(b, d)` is the result's entry `(b, 0, d)`. Every entry of the result is therefore overwritten, entry
  `(b, 0, d)` with `u`'s entry `(b, 0, d)`: the result is `rowZero u`, whatever it held before.
-/
import proofs.«218891_g41781441856021_cont_8to1_b_1506_9_alg».proof.Kernel
import proofs.«218891_g41781441856021_cont_8to1_b_1506_9_alg».proof.Proof.Gen.Kernel
import proofs.«218891_g41781441856021_cont_8to1_b_1506_9_alg».proof.Proof.RowZero
import proofs.«218891_g41781441856021_cont_8to1_b_1506_9_alg».proof.Proof.LibSqueezeMiddle

noncomputable section

namespace Cert.Proof.KernelCopy

open Cert.Kernel Cert.Kernel.Gen
open Idealize.ShloMosaic Idealize.ShloMosaic.ValueIdx
open Cert.RowZero Cert.LibSqueezeMiddle

variable {F : FTy → Type}

/-- The copy's source: rows 0 of `u` as the sequencer slices them, unit axis dropped. -/
abbrev srcView : View sig .scScalar .hbm S4x2048 .f32 :=
  (((Memref.whole main_arg0_scs : Memref sig .scScalar .hbm S4x4096x2048 .f32).slice
    (Rect.unit (s := S4x4096x2048) ![0, 0, 0] S4x1x2048.size inb_S4x4096x2048_S4x1x2048_0_0_0) (fun _ => rfl)).squeeze S4x2048 squeezes_S4x1x2048_S4x2048).view

/-- The copy's destination: the whole result, unit axis dropped. -/
abbrev dstView : View sig .scScalar .hbm S4x2048 .f32 :=
  (((Memref.whole main_v0_scs : Memref sig .scScalar .hbm S4x1x2048 .f32).slice
    (Rect.unit (s := S4x1x2048) ![0, 0, 0] S4x1x2048.size inb_S4x1x2048_S4x1x2048_0_0_0) (fun _ => rfl)).squeeze S4x2048 squeezes_S4x1x2048_S4x2048).view

/-- Entry `(b, d)` of the source view sits at `(b, 0, d)` of `u`. -/
theorem srcView_emb (b : Fin 4) (d : Fin 2048) :
    (srcView.emb (ix2 b d) : (⟨3, ![4, 4096, 2048]⟩ : Shape).Idx) = ix3 b (⟨0, by decide⟩ : Fin 4096) d := by
  show (Rect.unit (s := S4x4096x2048) ![0, 0, 0] S4x1x2048.size inb_S4x4096x2048_S4x1x2048_0_0_0).emb
    (Shape.reshapeEquiv squeezes_S4x1x2048_S4x2048.numel_eq (ix2 b d)) = _
  rw [reshapeEquiv_ix2_a1b]
  funext a; refine Fin.ext ?_
  rw [Rect.emb_apply]
  match a with
  | ⟨0, _⟩ => show 0 + 1 * b.val = b.val; omega
  | ⟨1, _⟩ => rfl
  | ⟨2, _⟩ => show 0 + 1 * d.val = d.val; omega

/-- Entry `(b, d)` of the destination view sits at `(b, 0, d)` of the result. -/
theorem dstView_emb (b : Fin 4) (d : Fin 2048) :
    (dstView.emb (ix2 b d) : (⟨3, ![4, 1, 2048]⟩ : Shape).Idx) = ix3 b (⟨0, Nat.one_pos⟩ : Fin 1) d := by
  show (Rect.unit (s := S4x1x2048) ![0, 0, 0] S4x1x2048.size inb_S4x1x2048_S4x1x2048_0_0_0).emb
    (Shape.reshapeEquiv squeezes_S4x1x2048_S4x2048.numel_eq (ix2 b d)) = _
  rw [reshapeEquiv_ix2_a1b]
  funext a; refine Fin.ext ?_
  rw [Rect.emb_apply]
  match a with
  | ⟨0, _⟩ => show 0 + 1 * b.val = b.val; omega
  | ⟨1, _⟩ => rfl
  | ⟨2, _⟩ => show 0 + 1 * d.val = d.val; omega

/-- The result array after the copy: `rowZero u`, whatever it held before. -/
theorem copied_eq (u : (⟨3, ![4, 4096, 2048]⟩ : Shape).Idx → Elt F .f32) (fo : (⟨3, ![4, 1, 2048]⟩ : Shape).Idx → Elt F .f32)
    (w : S4x2048.Idx → Elt F .f32) (hw : w = View.read (Elt F) srcView u) :
    View.write (Elt F) dstView fo w Finset.univ = rowZero u := by
  subst hw
  funext i
  obtain ⟨b, d, rfl⟩ : ∃ (b : Fin 4) (d : Fin 2048), i = ix3 b (⟨0, Nat.one_pos⟩ : Fin 1) d :=
    ⟨i 0, i 2, eq_ix3_mid_zero (a := 4) (b := 2048) i⟩
  -- the entry is the one the destination view's `(b, d)` covers; what lands there is the source view's `(b, d)`
  have hwr := View.write_emb_of_mem (v := dstView) (Val := Elt F) fo (View.read (Elt F) srcView u) (Finset.mem_univ (ix2 b d))
  have hrd := View.read_apply (v := srcView) (Val := Elt F) u (ix2 b d)
  exact ((congrArg (View.write (Elt F) dstView fo (View.read (Elt F) srcView u) Finset.univ) (dstView_emb b d).symm).trans hwr).trans
    ((cast_eq _ _).trans (hrd.trans ((cast_eq _ _).trans (congrArg u (srcView_emb b d)))))

end Cert.Proof.KernelCopy

end
-- ==== Proof.KernelRun.lean ====
/-
  The printed kernel's run, at any float instance.

  The device's TensorCore starts SparseCore 0's sequencer, which issues ONE copy on its one DMA semaphore — rows 0 of
  `u` (a `[4, 2048]` slab) onto the whole result array — and waits for it; nothing else runs. So there is no
  protocol beyond the launch's own handshakes: the sequencer is handed `u` and the result array whole, the copy and
  its wait are the schedule-free local transfer (the wait admissible because the sequencer owes nothing at the
  kernel's own index), and it hands back `u` unchanged and the result at `rowZero u` (the copy overwrites every
  entry of the result, entry `(b, 0, d)` with `u`'s `(b, 0, d)`). Every weakly fair execution of the device's
  threads therefore terminates, nothing faulting, with `u` unchanged and the result array at `rowZero u`.
-/
import proofs.«218891_g41781441856021_cont_8to1_b_1506_9_alg».proof.Defs
import Idealize.ShloMosaic.Lib.SparseCore.Launch
import Idealize.ShloMosaic.Lib.StableHlo.Run
import Idealize.ShloMosaic.Lib.Pipeline.Kit
import Idealize.ShloMosaic.Lib.Tactic
import proofs.«218891_g41781441856021_cont_8to1_b_1506_9_alg».proof.Proof.Gen.Kernel
import proofs.«218891_g41781441856021_cont_8to1_b_1506_9_alg».proof.Proof.Gen.Kernel.Skeleton
import proofs.«218891_g41781441856021_cont_8to1_b_1506_9_alg».proof.Proof.KernelCopy

noncomputable section

namespace Cert.Proof.KernelRun

open Cert.Kernel Cert.Kernel.Gen
open Cert.RowZero Cert.Proof.KernelCopy

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the two arrays -/

variable (m : (ℓ : Loc nD τ sig) → Buf (Elt F) ℓ) (ρ : Dev nD → PrngReg)

local notation "uW" => (Memref.whole Cert.Kernel.main_arg0_scs : Memref Cert.Kernel.sig Kind.scScalar Space.hbm Cert.Kernel.S4x4096x2048 EltTy.f32)
local notation "oW" => (Memref.whole Cert.Kernel.main_v0_scs : Memref Cert.Kernel.sig Kind.scScalar Space.hbm Cert.Kernel.S4x1x2048 EltTy.f32)
abbrev uLoc (d : Dev nD) : Loc nD τ sig := (SparseCore.T d).loc main_arg0
abbrev oLoc (d : Dev nD) : Loc nD τ sig := (SparseCore.T d).loc main_v0

variable [FloatOps F]

/-- `u` whole at its launch contents; the result array whole at `f`. -/
abbrev uPts (d : Dev nD) : sProp 𝕄 := uLoc d ↦{fullShare} m (uLoc d)
abbrev oPts (d : Dev nD) (f : Buf (Elt F) (oLoc d)) : sProp 𝕄 := oLoc d ↦{fullShare} f

/-- What the result array holds at the end: row 0 of every batch of `u`'s launch contents. -/
abbrev outOf (d : Dev nD) : Buf (Elt F) (oLoc d) := rowZero (m (uLoc d))

/-- What the call hands the sequencer: `u` and the result array, whatever it holds. -/
abbrev handed (d : Dev nD) : sProp 𝕄 := iprop(uPts m d ∗ ∃ f, oPts d f)
/-- What the sequencer hands back: `u` unchanged and the result array at `rowZero u`. -/
abbrev handedBack (d : Dev nD) : sProp 𝕄 := iprop(uPts m d ∗ oPts d (outOf m d))

def P : (K (F := F)).Pay (nD := nD) (Val := Elt F) (Name := ℕ) (U := UU) where
  st := fun _ d _ => handed m d
  dn := fun _ d _ => handedBack m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scratch0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scratch0.sem : SemLoc sig).isScoped .scScalar = true; decide⟩)

omit [FloatOps F] in
/-- The arrays as the sequencer's memrefs address them are the TensorCore's arrays. -/
theorem pts_u (c : Fin τ.nSC) (f : Buf (Elt F) (uLoc d)) :
    ((uW).view.loc (S d c) ↦{fullShare} f : sProp 𝕄)
      = uLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄)
      = oLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The kernel on the sequencer: the copy issued and waited for; the result array ends at `rowZero u`, `u` as it
    was, the semaphore's counter back at zero, and one wait recorded at the index that is nobody's. -/
theorem body₀ (h : 0 < grid0.bound 0) (O : CellTallies nD τ sig (HIx 1)) (W : Waits sig (HIx 1)) (hO : ∀ g, O g none = 0) :
    iprop(levAts (K (F := F)).L (K (F := F)).lev ∗ emp ∗ handed m d
        ∗ scopedBufs (S0 d h) ∗ scopedSems0 (S0 d h) ∗ owes (S0 d h) O W)
      ⊢ wp frame (wpE (defs₀ (F := F)) 𝒱₀ (S0 d h) none) Set.univ
          (cc0_sc_row_gather (coordsS ⟨0, h⟩) uW (Memref.isWhole_whole _) oW (Memref.isWhole_whole _) cc0_scratch0)
          fun _ => iprop((uPts m d ∗ ∃ f, oPts d f ∗ ⌜f = outOf m d⌝) ∗ scopedBufs (S0 d h) ∗ scopedSems0 (S0 d h) ∗ ∃ W', ⌜∀ p ∈ W', p ∈ W ∨ p.2 = none⌝ ∗ owes (S0 d h) O W') := by
  simp only [cc0_sc_row_gather_eq_skeleton]; unfold cc0_sc_row_gather_skel
  iintro ⟨#Hlv, -, ⟨Hu, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hu' := (Entails.of_eq (pts_u (F := F) d (((⟨0, h⟩ : Fin (grid0.bound 0))).castLE hcore0) _).symm) $$ Hu
  ihave Ho' := (Entails.of_eq (pts_o (F := F) d (((⟨0, h⟩ : Fin (grid0.bound 0))).castLE hcore0) _).symm) $$ Ho
  sl_exec
  sl_step
  isplitl [Hu' Ho']
  · isplitl [Hu']; · iapply (Entails.of_eq (pts_u (F := F) d _ _)); iexact Hu'
    iexists _
    isplitl [Ho']
    · iapply (Entails.of_eq (pts_o (F := F) d _ _)); iexact Ho'
    -- what the copy left in the result array is `rowZero u`
    · ipureintro; exact copied_eq (F := F) (m (uLoc d)) fo _ rfl
  isplitl [Hsb]; · iexact Hsb
  isplitl [Hsem Hrest Hsubs]
  · iapply (SparseCore.Cfg.scopedSems0_S_intro (Val := Elt F) d _)
    isplitl [Hsem Hrest]
    · rw [ownSems0_S]; isplitl [Hsem]
      · iexact Hsem
      · iexact Hrest
    · iexact Hsubs
  iexists (insert (SemLoc.dma cc0_scratch0.sem, (default : HIx 1)) W); isplitr
  · ipureintro; intro p hp
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0_sc_row_gather (coordsS c) uW (Memref.isWhole_whole _) oW (Memref.isWhole_whole _) cc0_scratch0) ⟨⟩ c := rfl

theorem obl_post {thr : Thread nD τ} {d : Dev nD} {B C : sProp 𝕄} {O : CellTallies nD τ sig (HIx 1)} {W : Waits sig (HIx 1)} {q : Fin 1} :
    iprop((uPts m d ∗ ∃ f, oPts d f ∗ ⌜f = outOf m d⌝) ∗ B ∗ C ∗ ∃ W', ⌜∀ p ∈ W', p ∈ W ∨ p.2 = none⌝ ∗ owes thr O W')
      ⊢ iprop(handedBack m d ∗ B ∗ C ∗ ∃ W', ⌜∀ p ∈ W', p ∈ W ∨ p.2 = none ∨ p.2 = some q⌝ ∗ owes thr O W') := by
  iintro ⟨⟨Hu, %f, Ho, %hf⟩, HB, HC, %W', %hW', HO⟩
  subst hf
  isplitl [Hu Ho]
  · isplitl [Hu]; · iexact Hu
    iexact Ho
  isplitl [HB]; · iexact HB
  isplitl [HC]; · iexact HC
  iexists W'; isplitr
  · ipureintro; exact fun p hp => (hW' p hp).imp_right Or.inl
  · iexact HO

/-- The one scalar call's obligation: its one SparseCore's sequencer runs `body₀`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed m d ∗ _) ⊢ wp _ _ _ _ (fun _ => iprop(handedBack m d ∗ _))
  match c with
  | ⟨0, h⟩ => exact (body₀ m d h O W hO).trans (wp_mono frame _ _ fun _ => obl_post m)
  | ⟨n + 1, h⟩ => exact absurd h (Nat.not_lt.2 (Nat.le_add_left 1 n))

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
/-- The TensorCore's arrays, both unscoped: `u` and the result. -/
theorem unscopedBufs_eq (d : Dev nD) (W : (b : Ref sig .tc) → Buf (Elt F) ((d.tc : Thread nD τ).loc b)) :
    (unscopedBufs d W : sProp 𝕄) = iprop((uLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the call takes for its one SparseCore, and what it hands back. -/
theorem st0_eq (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]
theorem dn0_eq (d : Dev nD) : (bigSep Finset.univ fun c : Fin ((K (F := F)).nCore 0) => (P m).dn 0 d c) = handedBack m d := by
  show (bigSep (Finset.univ : Finset (Fin 1)) fun _ => handedBack m d) = _
  rw [show (Finset.univ : Finset (Fin 1)) = {0} by decide, bigSep_singleton]

/-- What @main leaves the claim: `u` at its launch contents, the result at `rowZero u`. -/
abbrev FIN (d : Dev nD) : sProp 𝕄 := handedBack m d

/-- @main on the device's TensorCore: the one call, from `u` and the result array, and nothing after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hu, Ho⟩, -, -⟩, -⟩
  iapply ((K (F := F)).wp_run (D (F := F)) 𝒱 (EH := EH) (P := P m) κ d 0) $$ [Hst Hu Ho]
  isplitr; · iexact Hctx
  isplitl [Hst]; · iexact Hst
  isplitl [Hu Ho]
  · rw [st0_eq]
    isplitl [Hu]; · iexact Hu
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = outOf m d ∧ s'.mem.mem (uLoc d) = m (uLoc d)

theorem hfin (d : Dev nD) (s' : Phys nD τ sig (Elt F)) : iprop(FIN m d ∗ SI s') ⊢ (⌜fq m d s'⌝ : sProp 𝕄) := by
  iintro ⟨⟨Hu, Ho⟩, HSI⟩
  icombine HSI Hu gives %hu
  icombine HSI Ho gives %ho
  ipureintro
  exact ⟨funext fun i => ho i (Finset.mem_univ i), funext fun i => hu i (Finset.mem_univ i)⟩

/-! ## The program's run -/

def QC : PUnit × MemSt nD τ sig (Elt F) → Prop := fun r => ∀ c : Dev nD,
  r.2.mem (oLoc c) = outOf m c ∧ r.2.mem (uLoc c) = m (uLoc c)

theorem run_main [∀ e, Nonempty (Elt F e)] : θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KernelRun

end
-- ==== Proof.KernelIdealCopy.lean ====
/-
  What the kernel's one copy leaves in the result array.

  The copy reads the source through the rows-0 slab of `u` with its unit axis dropped — a `[4, 2048]` view whose
  entry `(b, d)` is `u`'s entry `(b, 0, d)` — and writes through the whole result array with its unit axis dropped,
  whose entry `(b, d)` is the result's entry `(b, 0, d)`. Every entry of the result is therefore overwritten, entry
  `(b, 0, d)` with `u`'s entry `(b, 0, d)`: the result is `rowZero u`, whatever it held before.
-/
import proofs.«218891_g41781441856021_cont_8to1_b_1506_9_alg».proof.KernelIdeal
import proofs.«218891_g41781441856021_cont_8to1_b_1506_9_alg».proof.Proof.Gen.KernelIdeal
import proofs.«218891_g41781441856021_cont_8to1_b_1506_9_alg».proof.Proof.RowZero
import proofs.«218891_g41781441856021_cont_8to1_b_1506_9_alg».proof.Proof.LibSqueezeMiddle

noncomputable section

namespace Cert.Proof.KernelIdealCopy

open Cert.KernelIdeal Cert.KernelIdeal.Gen
open Idealize.ShloMosaic Idealize.ShloMosaic.ValueIdx
open Cert.RowZero Cert.LibSqueezeMiddle

variable {F : FTy → Type}

/-- The copy's source: rows 0 of `u` as the sequencer slices them, unit axis dropped. -/
abbrev srcView : View sig .scScalar .hbm S4x2048 .f32 :=
  (((Memref.whole main_arg0_scs : Memref sig .scScalar .hbm S4x4096x2048 .f32).slice
    (Rect.unit (s := S4x4096x2048) ![0, 0, 0] S4x1x2048.size inb_S4x4096x2048_S4x1x2048_0_0_0) (fun _ => rfl)).squeeze S4x2048 squeezes_S4x1x2048_S4x2048).view

/-- The copy's destination: the whole result, unit axis dropped. -/
abbrev dstView : View sig .scScalar .hbm S4x2048 .f32 :=
  (((Memref.whole main_v0_scs : Memref sig .scScalar .hbm S4x1x2048 .f32).slice
    (Rect.unit (s := S4x1x2048) ![0, 0, 0] S4x1x2048.size inb_S4x1x2048_S4x1x2048_0_0_0) (fun _ => rfl)).squeeze S4x2048 squeezes_S4x1x2048_S4x2048).view

/-- Entry `(b, d)` of the source view sits at `(b, 0, d)` of `u`. -/
theorem srcView_emb (b : Fin 4) (d : Fin 2048) :
    (srcView.emb (ix2 b d) : (⟨3, ![4, 4096, 2048]⟩ : Shape).Idx) = ix3 b (⟨0, by decide⟩ : Fin 4096) d := by
  show (Rect.unit (s := S4x4096x2048) ![0, 0, 0] S4x1x2048.size inb_S4x4096x2048_S4x1x2048_0_0_0).emb
    (Shape.reshapeEquiv squeezes_S4x1x2048_S4x2048.numel_eq (ix2 b d)) = _
  rw [reshapeEquiv_ix2_a1b]
  funext a; refine Fin.ext ?_
  rw [Rect.emb_apply]
  match a with
  | ⟨0, _⟩ => show 0 + 1 * b.val = b.val; omega
  | ⟨1, _⟩ => rfl
  | ⟨2, _⟩ => show 0 + 1 * d.val = d.val; omega

/-- Entry `(b, d)` of the destination view sits at `(b, 0, d)` of the result. -/
theorem dstView_emb (b : Fin 4) (d : Fin 2048) :
    (dstView.emb (ix2 b d) : (⟨3, ![4, 1, 2048]⟩ : Shape).Idx) = ix3 b (⟨0, Nat.one_pos⟩ : Fin 1) d := by
  show (Rect.unit (s := S4x1x2048) ![0, 0, 0] S4x1x2048.size inb_S4x1x2048_S4x1x2048_0_0_0).emb
    (Shape.reshapeEquiv squeezes_S4x1x2048_S4x2048.numel_eq (ix2 b d)) = _
  rw [reshapeEquiv_ix2_a1b]
  funext a; refine Fin.ext ?_
  rw [Rect.emb_apply]
  match a with
  | ⟨0, _⟩ => show 0 + 1 * b.val = b.val; omega
  | ⟨1, _⟩ => rfl
  | ⟨2, _⟩ => show 0 + 1 * d.val = d.val; omega

/-- The result array after the copy: `rowZero u`, whatever it held before. -/
theorem copied_eq (u : (⟨3, ![4, 4096, 2048]⟩ : Shape).Idx → Elt F .f32) (fo : (⟨3, ![4, 1, 2048]⟩ : Shape).Idx → Elt F .f32)
    (w : S4x2048.Idx → Elt F .f32) (hw : w = View.read (Elt F) srcView u) :
    View.write (Elt F) dstView fo w Finset.univ = rowZero u := by
  subst hw
  funext i
  obtain ⟨b, d, rfl⟩ : ∃ (b : Fin 4) (d : Fin 2048), i = ix3 b (⟨0, Nat.one_pos⟩ : Fin 1) d :=
    ⟨i 0, i 2, eq_ix3_mid_zero (a := 4) (b := 2048) i⟩
  -- the entry is the one the destination view's `(b, d)` covers; what lands there is the source view's `(b, d)`
  have hwr := View.write_emb_of_mem (v := dstView) (Val := Elt F) fo (View.read (Elt F) srcView u) (Finset.mem_univ (ix2 b d))
  have hrd := View.read_apply (v := srcView) (Val := Elt F) u (ix2 b d)
  exact ((congrArg (View.write (Elt F) dstView fo (View.read (Elt F) srcView u) Finset.univ) (dstView_emb b d).symm).trans hwr).trans
    ((cast_eq _ _).trans (hrd.trans ((cast_eq _ _).trans (congrArg u (srcView_emb b d)))))

end Cert.Proof.KernelIdealCopy

end
-- ==== Proof.KernelIdealRun.lean ====
/-
  The idealized kernel's run, at any float instance.

  The device's TensorCore starts SparseCore 0's sequencer, which issues ONE copy on its one DMA semaphore — rows 0 of
  `u` (a `[4, 2048]` slab) onto the whole result array — and waits for it; nothing else runs. So there is no
  protocol beyond the launch's own handshakes: the sequencer is handed `u` and the result array whole, the copy and
  its wait are the schedule-free local transfer (the wait admissible because the sequencer owes nothing at the
  kernel's own index), and it hands back `u` unchanged and the result at `rowZero u` (the copy overwrites every
  entry of the result, entry `(b, 0, d)` with `u`'s `(b, 0, d)`). Every weakly fair execution of the device's
  threads therefore terminates, nothing faulting, with `u` unchanged and the result array at `rowZero u`.
-/
import proofs.«218891_g41781441856021_cont_8to1_b_1506_9_alg».proof.Defs
import Idealize.ShloMosaic.Lib.SparseCore.Launch
import Idealize.ShloMosaic.Lib.StableHlo.Run
import Idealize.ShloMosaic.Lib.Pipeline.Kit
import Idealize.ShloMosaic.Lib.Tactic
import proofs.«218891_g41781441856021_cont_8to1_b_1506_9_alg».proof.Proof.Gen.KernelIdeal
import proofs.«218891_g41781441856021_cont_8to1_b_1506_9_alg».proof.Proof.Gen.KernelIdeal.Skeleton
import proofs.«218891_g41781441856021_cont_8to1_b_1506_9_alg».proof.Proof.KernelIdealCopy

noncomputable section

namespace Cert.Proof.KernelIdealRun

open Cert.KernelIdeal Cert.KernelIdeal.Gen
open Cert.RowZero Cert.Proof.KernelIdealCopy

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the two arrays -/

variable (m : (ℓ : Loc nD τ sig) → Buf (Elt F) ℓ) (ρ : Dev nD → PrngReg)

local notation "uW" => (Memref.whole Cert.KernelIdeal.main_arg0_scs : Memref Cert.KernelIdeal.sig Kind.scScalar Space.hbm Cert.KernelIdeal.S4x4096x2048 EltTy.f32)
local notation "oW" => (Memref.whole Cert.KernelIdeal.main_v0_scs : Memref Cert.KernelIdeal.sig Kind.scScalar Space.hbm Cert.KernelIdeal.S4x1x2048 EltTy.f32)
abbrev uLoc (d : Dev nD) : Loc nD τ sig := (SparseCore.T d).loc main_arg0
abbrev oLoc (d : Dev nD) : Loc nD τ sig := (SparseCore.T d).loc main_v0

variable [FloatOps F]

/-- `u` whole at its launch contents; the result array whole at `f`. -/
abbrev uPts (d : Dev nD) : sProp 𝕄 := uLoc d ↦{fullShare} m (uLoc d)
abbrev oPts (d : Dev nD) (f : Buf (Elt F) (oLoc d)) : sProp 𝕄 := oLoc d ↦{fullShare} f

/-- What the result array holds at the end: row 0 of every batch of `u`'s launch contents. -/
abbrev outOf (d : Dev nD) : Buf (Elt F) (oLoc d) := rowZero (m (uLoc d))

/-- What the call hands the sequencer: `u` and the result array, whatever it holds. -/
abbrev handed (d : Dev nD) : sProp 𝕄 := iprop(uPts m d ∗ ∃ f, oPts d f)
/-- What the sequencer hands back: `u` unchanged and the result array at `rowZero u`. -/
abbrev handedBack (d : Dev nD) : sProp 𝕄 := iprop(uPts m d ∗ oPts d (outOf m d))

def P : (K (F := F)).Pay (nD := nD) (Val := Elt F) (Name := ℕ) (U := UU) where
  st := fun _ d _ => handed m d
  dn := fun _ d _ => handedBack m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The kernel's body on the sequencer -/

section Body

variable (d : Dev nD)

def coordsS (c : Fin (grid0.bound 0)) : grid0.Coords := fun | 0 => c | ⟨_ + 1, h⟩ => absurd h (Nat.not_lt.2 (Nat.le_add_left _ _))

abbrev c0cell (c : Fin τ.nSC) : GSem nD τ sig := (S d c, .dma cc0_scratch0.sem)

omit [FloatOps F] in
theorem ownSems0_S (c : Fin τ.nSC) :
    (ownSems0 (S d c) : sProp 𝕄) = iprop(semVal (c0cell d c) 0 ∗ bigSep ((ownCells (S d c)).erase (c0cell d c)) fun g => semVal g 0) := by
  unfold SparseCore.Cfg.ownSems0
  exact SparseCore.bigSep_erase' ((mem_ownCells (g := c0cell d c)).mpr ⟨rfl, by show (SemLoc.dma cc0_scratch0.sem : SemLoc sig).isScoped .scScalar = true; decide⟩)

omit [FloatOps F] in
/-- The arrays as the sequencer's memrefs address them are the TensorCore's arrays. -/
theorem pts_u (c : Fin τ.nSC) (f : Buf (Elt F) (uLoc d)) :
    ((uW).view.loc (S d c) ↦{fullShare} f : sProp 𝕄)
      = uLoc d ↦{fullShare} f := by
  simp only [Memref.view_whole, View.set_whole]
omit [FloatOps F] in
theorem pts_o (c : Fin τ.nSC) (f : Buf (Elt F) (oLoc d)) :
    ((oW).view.loc (S d c) ↦{fullShare} f : sProp 𝕄)
      = oLoc d ↦{fullShare} f := by
  simp only [Memref.view_whole, View.set_whole]

/-- SparseCore 0's sequencer thread. -/
abbrev S0 (h : 0 < grid0.bound 0) : Thread nD τ := S d ((⟨0, h⟩ : Fin (grid0.bound 0)).castLE hcore0)

/-- The kernel on the sequencer: the copy issued and waited for; the result array ends at `rowZero u`, `u` as it
    was, the semaphore's counter back at zero, and one wait recorded at the index that is nobody's. -/
theorem body₀ (h : 0 < grid0.bound 0) (O : CellTallies nD τ sig (HIx 1)) (W : Waits sig (HIx 1)) (hO : ∀ g, O g none = 0) :
    iprop(levAts (K (F := F)).L (K (F := F)).lev ∗ emp ∗ handed m d
        ∗ scopedBufs (S0 d h) ∗ scopedSems0 (S0 d h) ∗ owes (S0 d h) O W)
      ⊢ wp frame (wpE (defs₀ (F := F)) 𝒱₀ (S0 d h) none) Set.univ
          (cc0_sc_row_gather (coordsS ⟨0, h⟩) uW (Memref.isWhole_whole _) oW (Memref.isWhole_whole _) cc0_scratch0)
          fun _ => iprop((uPts m d ∗ ∃ f, oPts d f ∗ ⌜f = outOf m d⌝) ∗ scopedBufs (S0 d h) ∗ scopedSems0 (S0 d h) ∗ ∃ W', ⌜∀ p ∈ W', p ∈ W ∨ p.2 = none⌝ ∗ owes (S0 d h) O W') := by
  simp only [cc0_sc_row_gather_eq_skeleton]; unfold cc0_sc_row_gather_skel
  iintro ⟨#Hlv, -, ⟨Hu, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem, Hrest⟩
  ihave Hmw := ((K (F := F)).mayWaits_none (thr := S0 d h) hO) $$ Hlv
  ihave Hu' := (Entails.of_eq (pts_u (F := F) d (((⟨0, h⟩ : Fin (grid0.bound 0))).castLE hcore0) _).symm) $$ Hu
  ihave Ho' := (Entails.of_eq (pts_o (F := F) d (((⟨0, h⟩ : Fin (grid0.bound 0))).castLE hcore0) _).symm) $$ Ho
  sl_exec
  sl_step
  isplitl [Hu' Ho']
  · isplitl [Hu']; · iapply (Entails.of_eq (pts_u (F := F) d _ _)); iexact Hu'
    iexists _
    isplitl [Ho']
    · iapply (Entails.of_eq (pts_o (F := F) d _ _)); iexact Ho'
    -- what the copy left in the result array is `rowZero u`
    · ipureintro; exact copied_eq (F := F) (m (uLoc d)) fo _ rfl
  isplitl [Hsb]; · iexact Hsb
  isplitl [Hsem Hrest Hsubs]
  · iapply (SparseCore.Cfg.scopedSems0_S_intro (Val := Elt F) d _)
    isplitl [Hsem Hrest]
    · rw [ownSems0_S]; isplitl [Hsem]
      · iexact Hsem
      · iexact Hrest
    · iexact Hsubs
  iexists (insert (SemLoc.dma cc0_scratch0.sem, (default : HIx 1)) W); isplitr
  · ipureintro; intro p hp
    rcases Finset.mem_insert.mp hp with hp | hp
    · exact .inr (hp ▸ rfl)
    · exact .inl hp
  · iexact HO

end Body

/-! ## The launch theorem's obligation -/

theorem defs₀_scalar (c : Fin τ.nSC) :
    defs₀ (F := F) (.scScalar c) 0 ()
      = SparseCore.onCore hcore0 (fun c => cc0_sc_row_gather (coordsS c) uW (Memref.isWhole_whole _) oW (Memref.isWhole_whole _) cc0_scratch0) ⟨⟩ c := rfl

theorem obl_post {thr : Thread nD τ} {d : Dev nD} {B C : sProp 𝕄} {O : CellTallies nD τ sig (HIx 1)} {W : Waits sig (HIx 1)} {q : Fin 1} :
    iprop((uPts m d ∗ ∃ f, oPts d f ∗ ⌜f = outOf m d⌝) ∗ B ∗ C ∗ ∃ W', ⌜∀ p ∈ W', p ∈ W ∨ p.2 = none⌝ ∗ owes thr O W')
      ⊢ iprop(handedBack m d ∗ B ∗ C ∗ ∃ W', ⌜∀ p ∈ W', p ∈ W ∨ p.2 = none ∨ p.2 = some q⌝ ∗ owes thr O W') := by
  iintro ⟨⟨Hu, %f, Ho, %hf⟩, HB, HC, %W', %hW', HO⟩
  subst hf
  isplitl [Hu Ho]
  · isplitl [Hu]; · iexact Hu
    iexact Ho
  isplitl [HB]; · iexact HB
  isplitl [HC]; · iexact HC
  iexists W'; isplitr
  · ipureintro; exact fun p hp => (hW' p hp).imp_right Or.inl
  · iexact HO

/-- The one scalar call's obligation: its one SparseCore's sequencer runs `body₀`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ handed m d ∗ _) ⊢ wp _ _ _ _ (fun _ => iprop(handedBack m d ∗ _))
  match c with
  | ⟨0, h⟩ => exact (body₀ m d h O W hO).trans (wp_mono frame _ _ fun _ => obl_post m)
  | ⟨n + 1, h⟩ => exact absurd h (Nat.not_lt.2 (Nat.le_add_left 1 n))

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

omit [FloatOps F] in
/-- The TensorCore's arrays, both unscoped: `u` and the result. -/
theorem unscopedBufs_eq (d : Dev nD) (W : (b : Ref sig .tc) → Buf (Elt F) ((d.tc : Thread nD τ).loc b)) :
    (unscopedBufs d W : sProp 𝕄) = iprop((uLoc d ↦{fullShare} W main_arg0) ∗ (oLoc d ↦{fullShare} W main_v0)) := by
  unfold unscopedBufs
  rw [show (Finset.univ.filter fun b : Ref sig .tc => ¬ b.isScoped) = {main_arg0, main_v0} by decide,
    SparseCore.bigSep_insert' (by decide), bigSep_singleton]

/-- What the call takes for its one SparseCore, and what it hands back. -/
theorem st0_eq (d : Dev nD) : (bigSep Finset.univ fun c : Fin ((K (F := F)).nCore 0) => (P m).st 0 d c) = handed m d := by
  show (bigSep (Finset.univ : Finset (Fin 1)) fun _ => handed m d) = _
  rw [show (Finset.univ : Finset (Fin 1)) = {0} by decide, bigSep_singleton]
theorem dn0_eq (d : Dev nD) : (bigSep Finset.univ fun c : Fin ((K (F := F)).nCore 0) => (P m).dn 0 d c) = handedBack m d := by
  show (bigSep (Finset.univ : Finset (Fin 1)) fun _ => handedBack m d) = _
  rw [show (Finset.univ : Finset (Fin 1)) = {0} by decide, bigSep_singleton]

/-- What @main leaves the claim: `u` at its launch contents, the result at `rowZero u`. -/
abbrev FIN (d : Dev nD) : sProp 𝕄 := handedBack m d

/-- @main on the device's TensorCore: the one call, from `u` and the result array, and nothing after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hu, Ho⟩, -, -⟩, -⟩
  iapply ((K (F := F)).wp_run (D (F := F)) 𝒱 (EH := EH) (P := P m) κ d 0) $$ [Hst Hu Ho]
  isplitr; · iexact Hctx
  isplitl [Hst]; · iexact Hst
  isplitl [Hu Ho]
  · rw [st0_eq]
    isplitl [Hu]; · iexact Hu
    iexists _; iexact Ho
  iintro ⟨Hst, Hdn⟩
  ihave Hdn' := (Entails.of_eq (dn0_eq m d)) $$ Hdn
  imodintro
  isplitl [Hst]; · iexact Hst
  iexact Hdn'

def fq (d : Dev nD) (s' : Phys nD τ sig (Elt F)) : Prop :=
  s'.mem.mem (oLoc d) = outOf m d ∧ s'.mem.mem (uLoc d) = m (uLoc d)

theorem hfin (d : Dev nD) (s' : Phys nD τ sig (Elt F)) : iprop(FIN m d ∗ SI s') ⊢ (⌜fq m d s'⌝ : sProp 𝕄) := by
  iintro ⟨⟨Hu, Ho⟩, HSI⟩
  icombine HSI Hu gives %hu
  icombine HSI Ho gives %ho
  ipureintro
  exact ⟨funext fun i => ho i (Finset.mem_univ i), funext fun i => hu i (Finset.mem_univ i)⟩

/-! ## The program's run -/

def QC : PUnit × MemSt nD τ sig (Elt F) → Prop := fun r => ∀ c : Dev nD,
  r.2.mem (oLoc c) = outOf m c ∧ r.2.mem (uLoc c) = m (uLoc c)

theorem run_main [∀ e, Nonempty (Elt F e)] : θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h => h)

end Cert.Proof.KernelIdealRun

end
-- ==== Proof.RefRun.lean ====
/-
  The idealized reference's run, at any float instance.

  The reference is a straight line of host operations: the index constant `[0]`, then — inlined at its one call —
  `jnp.take`'s body: the index wrapped if negative (the `where` called inside it inlined in turn), widened to a
  `[1, 1]` array of start indices, the in-range test (`0 ≤ start ≤ 4095`, folded by `and` over the index's one
  coordinate), the gather of whole rows at the start index, and the select that keeps the gathered entry where the
  start is in range and a filler value where it is not. Listed in order they are @main; every weakly fair execution
  runs them to the end, each buffer holding what the operations before it leave there.
-/
import proofs.«218891_g41781441856021_cont_8to1_b_1506_9_alg».proof.ReferenceIdeal
import proofs.«218891_g41781441856021_cont_8to1_b_1506_9_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: its own constant, then the take's twenty-three (the `where`'s select among them). -/
abbrev ops : List (HloOp τ sig (Elt F)) :=
  [ nullary main_c (constantI S1 32 0#32),
    TRef.nullary main_call0.c (constantI S_ 32 0#32),
    TRef.unary main_call0.c main_call0.v0 (broadcastInDim S1 ![] bcast_S_S1),
    TRef.binary (.of main_c) main_call0.v0 main_call0.v1 (cmpi .slt),
    TRef.nullary main_call0.c_0 (constantI S_ 32 4096#32),
    TRef.unary main_call0.c_0 main_call0.v2 (broadcastInDim S1 ![] bcast_S_S1),
    TRef.binary (.of main_c) main_call0.v2 main_call0.v3 addi,
    TRef.ternary main_call0.v1 main_call0.v3 (.of main_c) main_call0.call0.v0 select,
    TRef.unary main_call0.call0.v0 main_call0.v5 (broadcastInDim S1x1 ![0] bcast_S1_S1x1_0),
    TRef.nullary main_call0.c_1 (constantI S1 32 4095#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_arg0) main_call0.v5 main_call0.v12 (fun x i => Host.gather gather_S4x4096x2048_S1x1_S4x1x2048_02_1_n_n_1_1_412048 x i),
    TRef.unary main_call0.v11 main_call0.v13 (broadcastInDim S4x1x2048 ![1] bcast_S1_S4x1x2048_1),
    TRef.nullary main_call0.cst (constant S_ .f32 0x7FC00000#32),
    TRef.unary main_call0.cst main_call0.v14 (broadcastInDim S4x1x2048 ![] bcast_S_S4x1x2048),
    TRef.ternary main_call0.v13 main_call0.v12 main_call0.v14 main_call0.v15 select ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- The start indices the gather reads: the index `0`, wrapped if negative, as a `[1, 1]` array. -/
def starts : IVec S1x1 32 :=
  broadcastInDim S1x1 ![0] bcast_S1_S1x1_0
    (select (cmpi .slt (constantI S1 32 0#32) (broadcastInDim S1 ![] bcast_S_S1 (constantI S_ 32 0#32)))
      (addi (constantI S1 32 0#32) (broadcastInDim S1 ![] bcast_S_S1 (constantI S_ 32 4096#32)))
      (constantI S1 32 0#32))

/-- Whether the start index names a position of the axis: `0 ≤ start ≤ 4095`. -/
def inRange : IVec S1 1 :=
  Host.reduce IntOp.andi
    (andi (cmpi .sge starts (broadcastInDim S1x1 ![] bcast_S_S1x1 (constantI S_ 32 0#32)))
      (cmpi .sle starts (broadcastInDim S1x1 ![1] bcast_S1_S1x1_1 (constantI S1 32 4095#32))))
    (constantI S_ 1 1#1) reducesTo_S1x1_S1_d1 h_S_

/-- The reference's result as one term of `u`: the rows gathered at the start index where it is in range, a filler
    value elsewhere. -/
def out (u : (⟨S4x4096x2048, .f32⟩ : BufTy).Contents (Elt F)) : (⟨S4x1x2048, .f32⟩ : BufTy).Contents (Elt F) :=
  select (broadcastInDim S4x1x2048 ![1] bcast_S1_S4x1x2048_1 inRange)
    (Host.gather gather_S4x4096x2048_S1x1_S4x1x2048_02_1_n_n_1_1_412048 u starts)
    (broadcastInDim S4x1x2048 ![] bcast_S_S4x1x2048 (constant S_ .f32 0x7FC00000#32))

attribute [local irreducible] Host.reduce Host.gather in
set_option maxRecDepth 8192 in
/-- The fold of the operations at the result buffer is `out` of the argument: by computation. -/
theorem out_eq (V : Valuation τ sig (Elt F)) :
    after ops V (main_v0 : DevRef τ sig) = out (V (main_arg0 : DevRef τ sig)) := by
  simp only [after_cons, after_nil]
  rfl

theorem arg0_eq (V : Valuation τ sig (Elt F)) :
    after ops V (main_arg0 : DevRef τ sig) = V (main_arg0 : DevRef τ sig) := by
  simp only [after_cons, after_nil]
  rfl

/-- From any memory with zero counters every weakly fair execution of @main terminates, the result buffer at `out` of
    the argument's launch contents, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = out (m ((c.tc : Thread nD τ).loc main_arg0))
      ∧ r.2.mem ((c.tc : Thread nD τ).loc main_arg0) = m ((c.tc : Thread nD τ).loc main_arg0) :=
  (θ_run defs _ _).mono (fun _ h c => ⟨(h c main_v0).trans (out_eq _), (h c main_arg0).trans (arg0_eq _)⟩)
    (run_seq scopedRefs_eq scopedSems_eq defs main (fun _ => ops) main_eq (fun _ => ops_sub) m ρ)

end Cert.Proof.RefRun

end
-- ==== Proof.LibRowScatter.lean ====
/-
  Whole rows gathered and scattered along the node axis, read at an index.

  The operand is an array over (batch, node, feature) of extents `B, N, D`; the indices are a column of `M` words,
  each naming a node; the other array is over (batch, index, feature) of extents `B, M, D`.
  * An ACCUMULATING SCATTER adds update row `e` to operand row `idx[e]` (read signed; a row outside `[0, N)` is
    dropped). At the extended reals entry `(b, n, d)` of the result is the operand's entry plus the sum, over the
    rows `e` with `idx[e] = n`, of update entry `(b, e, d)` (`hostScatterAdd_rows_apply`), because an update entry
    `(b, e, d)` lands exactly at `(b, idx[e], d)` (`resultIdx?_rows`).
  * A GATHER reads operand row `idx[e]`, read signed and clamped into `[0, N − 1]`, into result row `e`
    (`gather_rows_apply`).
  * A sum over a range of doubled length splits into its two halves (`sum_two_halves`), which is how one scatter of
    two update lists laid end to end is compared with two scatters in a row.
-/
import Idealize.ShloMosaic.PureOps.Ideal
import Idealize.ShloMosaic.Lib.ValueIdx

noncomputable section
open scoped BigOperators
namespace Cert.LibRows

open Idealize.ShloMosaic Idealize.ShloMosaic.ValueIdx

/-- The dimension numbers of a scatter of whole rows: update axes 0 and 2 are window axes, operand axis 1 is the
    inserted one and the one the index names. -/
abbrev rowScatterDims (B N D M : Nat)
    (wf : ScatterDims.WF ⟨3, ![B, N, D]⟩ ⟨2, ![M, 1]⟩ ⟨3, ![B, M, D]⟩ [0, 2] [1] [1] 1) :
    ScatterDims ⟨3, ![B, N, D]⟩ ⟨2, ![M, 1]⟩ ⟨3, ![B, M, D]⟩ where
  updateWindowDims := [0, 2]
  insertedWindowDims := [1]
  scatterDimsToOperandDims := [1]
  indexVectorDim := 1
  wf := wf

variable {B N D M w : Nat} (wf : ScatterDims.WF ⟨3, ![B, N, D]⟩ ⟨2, ![M, 1]⟩ ⟨3, ![B, M, D]⟩ [0, 2] [1] [1] 1)

/-- On the node axis an update's start is its row's index word, read signed. -/
theorem start1 (j : (⟨3, ![B, M, D]⟩ : Shape).Idx) (idx : IVec ⟨2, ![M, 1]⟩ w) :
    (rowScatterDims B N D M wf).start j idx 1 = (idx (ix2 (j 1) (0 : Fin 1))).toInt := by
  unfold ScatterDims.start
  rw [dif_pos (show (1 : Fin 3) ∈ (rowScatterDims B N D M wf).scatterDimsToOperandDims from List.mem_singleton.mpr rfl)]
  congr 2
  funext b; refine Fin.ext ?_
  match b with
  | ⟨0, _⟩ => rfl
  | ⟨1, _⟩ => rfl

/-- Update entry `(b, e, d)` lands at `(b', n, d')` exactly when the batch and the feature agree and row `e`'s index
    word, read signed, is `n`. -/
theorem resultIdx?_rows (e : Fin M) (b : Fin B) (d : Fin D) (idx : IVec ⟨2, ![M, 1]⟩ w) (b' : Fin B) (n : Fin N) (d' : Fin D) :
    (rowScatterDims B N D M wf).resultIdx? (ix3 b e d) idx = some (ix3 b' n d') ↔
      b' = b ∧ d' = d ∧ (idx (ix2 e (0 : Fin 1))).toInt = (n.val : ℤ) := by
  have hs : (rowScatterDims B N D M wf).start (ix3 b e d) idx 1 = (idx (ix2 e (0 : Fin 1))).toInt := start1 wf _ idx
  unfold ScatterDims.resultIdx?
  split
  · next h =>
    rw [Option.some.injEq]
    constructor
    · intro hf
      have h0 := congrArg (fun f => (f 0).val) hf
      have h1 := congrArg (fun f => (f 1).val) hf
      have h2 := congrArg (fun f => (f 2).val) hf
      have g1 := (h 1).1
      simp only at h0 h1 h2
      refine ⟨Fin.ext ?_, Fin.ext ?_, ?_⟩
      · have : ((0 : ℤ) + ((b.val : ℕ) : ℤ)).toNat = b'.val := h0
        omega
      · have : ((0 : ℤ) + ((d.val : ℕ) : ℤ)).toNat = d'.val := h2
        omega
      · have e1 : ((rowScatterDims B N D M wf).start (ix3 b e d) idx 1 + ((0 : ℕ) : ℤ)).toNat = n.val := h1
        have e2 : 0 ≤ (rowScatterDims B N D M wf).start (ix3 b e d) idx 1 + ((0 : ℕ) : ℤ) := g1
        rw [hs] at e1 e2
        omega
    · rintro ⟨rfl, rfl, hx⟩
      funext a
      refine Fin.ext ?_
      match a with
      | ⟨0, _⟩ => show ((0 : ℤ) + ((b'.val : ℕ) : ℤ)).toNat = b'.val; omega
      | ⟨1, _⟩ =>
        show ((rowScatterDims B N D M wf).start (ix3 b' e d') idx 1 + ((0 : ℕ) : ℤ)).toNat = n.val
        rw [hs, hx]; omega
      | ⟨2, _⟩ => show ((0 : ℤ) + ((d'.val : ℕ) : ℤ)).toNat = d'.val; omega
  · next h =>
    constructor
    · intro hf; exact absurd hf (by simp)
    · rintro ⟨rfl, rfl, hx⟩
      exfalso; apply h
      intro a
      match a with
      | ⟨0, _⟩ =>
        show 0 ≤ (0 : ℤ) + ((b'.val : ℕ) : ℤ) ∧ (0 : ℤ) + ((b'.val : ℕ) : ℤ) < ((B : ℕ) : ℤ)
        have := b'.isLt; omega
      | ⟨1, _⟩ =>
        show 0 ≤ (rowScatterDims B N D M wf).start (ix3 b' e d') idx 1 + ((0 : ℕ) : ℤ)
          ∧ (rowScatterDims B N D M wf).start (ix3 b' e d') idx 1 + ((0 : ℕ) : ℤ) < ((N : ℕ) : ℤ)
        rw [hs, hx]; have := n.isLt; omega
      | ⟨2, _⟩ =>
        show 0 ≤ (0 : ℤ) + ((d'.val : ℕ) : ℤ) ∧ (0 : ℤ) + ((d'.val : ℕ) : ℤ) < ((D : ℕ) : ℤ)
        have := d'.isLt; omega

/-- The accumulating row scatter read at `(b, n, d)`. -/
theorem hostScatterAdd_rows_apply (x : (⟨3, ![B, N, D]⟩ : Shape).Idx → EReal) (idx : IVec ⟨2, ![M, 1]⟩ w)
    (upd : (⟨3, ![B, M, D]⟩ : Shape).Idx → EReal) (b : Fin B) (n : Fin N) (d : Fin D) :
    Ideal.hostScatterAdd (rowScatterDims B N D M wf) x idx upd (ix3 b n d)
      = x (ix3 b n d) + ∑ e : Fin M, if (idx (ix2 e (0 : Fin 1))).toInt = (n.val : ℤ) then upd (ix3 b e d) else 0 := by
  unfold Ideal.hostScatterAdd
  refine congrArg (x (ix3 b n d) + ·) ?_
  rw [← Finset.sum_filter]
  refine Finset.sum_nbij' (fun j => (j 1 : Fin M)) (fun e => ix3 b e d) ?_ ?_ ?_ ?_ ?_
  · intro j hj
    have hj' := (Finset.mem_filter.mp hj).2
    rw [eq_ix3 j] at hj'
    exact Finset.mem_filter.mpr ⟨Finset.mem_univ _, ((resultIdx?_rows wf _ _ _ idx b n d).mp hj').2.2⟩
  · intro e he
    have he' := (Finset.mem_filter.mp he).2
    exact Finset.mem_filter.mpr ⟨Finset.mem_univ _, (resultIdx?_rows wf e b d idx b n d).mpr ⟨rfl, rfl, he'⟩⟩
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact hjj.symm
  · intro e _; rfl
  · intro j hj
    have hj' := (Finset.mem_filter.mp hj).2
    rw [eq_ix3 j] at hj'
    obtain ⟨h0, h2, -⟩ := (resultIdx?_rows wf _ _ _ idx b n d).mp hj'
    have hjj : j = ix3 b (j 1) d := by rw [h0, h2]; exact eq_ix3 j
    exact congrArg upd hjj

/-- A sum over a range of doubled length is the sum over its first half plus the sum over its second half. -/
theorem sum_two_halves {K K2 : Nat} (h : K2 = K + K) (f : Fin K2 → EReal) :
    ∑ e, f e = ∑ e : Fin K, f ⟨e.val, by omega⟩ + ∑ e : Fin K, f ⟨K + e.val, by omega⟩ := by
  subst h
  rw [Fin.sum_univ_add]
  rfl

/-- The dimension numbers of a gather of whole rows: the operand over (batch, node, feature), a column of `M` start
    indices naming nodes, the result over (batch, index, feature). -/
abbrev rowGatherDims (B N D M : Nat)
    (wf : GatherDims.WF ⟨3, ![B, N, D]⟩ ⟨2, ![M, 1]⟩ ⟨3, ![B, M, D]⟩ [0, 2] [1] [] [1] [] 1 ![B, 1, D]) :
    GatherDims ⟨3, ![B, N, D]⟩ ⟨2, ![M, 1]⟩ ⟨3, ![B, M, D]⟩ where
  offsetDims := [0, 2]
  collapsedSliceDims := [1]
  operandBatchingDims := []
  startIndicesBatchingDims := []
  startIndexMap := [1]
  indexVectorDim := 1
  sliceSizes := ![B, 1, D]
  wf := wf

/-- The row gather read at `(b, e, d)`: the operand at row `idx[e]`, read signed and clamped into `[0, N − 1]`. -/
theorem gather_rows_apply {α : Type} (hN : 0 < N)
    (wfg : GatherDims.WF ⟨3, ![B, N, D]⟩ ⟨2, ![M, 1]⟩ ⟨3, ![B, M, D]⟩ [0, 2] [1] [] [1] [] 1 ![B, 1, D])
    (x : (⟨3, ![B, N, D]⟩ : Shape).Idx → α) (idx : IVec ⟨2, ![M, 1]⟩ w) (b : Fin B) (e : Fin M) (d : Fin D) :
    Host.gather (rowGatherDims B N D M wfg) x idx (ix3 b e d)
      = x (ix3 b ⟨min (idx (ix2 e (0 : Fin 1))).toInt.toNat (N - 1), by omega⟩ d) := by
  unfold Host.gather
  refine congrArg x (funext fun a => Fin.ext ?_)
  have hst : (rowGatherDims B N D M wfg).start (ix3 b e d) idx 1 = min (idx (ix2 e (0 : Fin 1))).toInt.toNat (N - 1) := by
    unfold GatherDims.start
    rw [dif_pos (show (1 : Fin 3) ∈ (rowGatherDims B N D M wfg).startIndexMap from List.mem_singleton.mpr rfl)]
    have hsi : (rowGatherDims B N D M wfg).siIdx (ix3 b e d) ⟨List.idxOf (1 : Fin 3) (rowGatherDims B N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (rowGatherDims B N D M wfg).start (ix3 b e d) idx 0 + (rowGatherDims B N D M wfg).batchCoord (ix3 b e d) 0
      + (rowGatherDims B N D M wfg).offCoord (ix3 b e d) 0 = b.val
    have h1 : (rowGatherDims B N D M wfg).start (ix3 b e d) idx 0 = 0 := rfl
    have h2 : (rowGatherDims B N D M wfg).batchCoord (ix3 b e d) 0 = 0 := rfl
    have h3 : (rowGatherDims B N D M wfg).offCoord (ix3 b e d) 0 = b.val := rfl
    rw [h1, h2, h3]; omega
  | ⟨1, _⟩ =>
    show (rowGatherDims B N D M wfg).start (ix3 b e d) idx 1 + (rowGatherDims B N D M wfg).batchCoord (ix3 b e d) 1
      + (rowGatherDims B N D M wfg).offCoord (ix3 b e d) 1 = min (idx (ix2 e (0 : Fin 1))).toInt.toNat (N - 1)
    have h2 : (rowGatherDims B N D M wfg).batchCoord (ix3 b e d) 1 = 0 := rfl
    have h3 : (rowGatherDims B N D M wfg).offCoord (ix3 b e d) 1 = 0 := rfl
    rw [hst, h2, h3]; rfl
  | ⟨2, _⟩ =>
    show (rowGatherDims B N D M wfg).start (ix3 b e d) idx 2 + (rowGatherDims B N D M wfg).batchCoord (ix3 b e d) 2
      + (rowGatherDims B N D M wfg).offCoord (ix3 b e d) 2 = d.val
    have h1 : (rowGatherDims B N D M wfg).start (ix3 b e d) idx 2 = 0 := rfl
    have h2 : (rowGatherDims B N D M wfg).batchCoord (ix3 b e d) 2 = 0 := rfl
    have h3 : (rowGatherDims B N D M wfg).offCoord (ix3 b e d) 2 = d.val := rfl
    rw [h1, h2, h3]; omega

end Cert.LibRows
end
-- ==== Proof.LibAllTrue.lean ====
/-
  A reduction by `and` over words that are all 1.

  A host reduce of one-bit words by `and` folds, at each result index, the operand words that reduce into it, starting
  from the initial value's element. If that element is 1 and every operand word is 1, every step is `1 and 1 = 1`, so
  the result is 1 at every index, whatever the shapes and the reduced axes.
-/
import Idealize.ShloMosaic.PureOps.Reduce

namespace Cert.LibAllTrue

open Idealize.ShloMosaic

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A `stablehlo.reduce` by `and` from an initial value that is 1, over an operand that is 1 everywhere, is 1 at every
    result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x hx _

end Cert.LibAllTrue
-- ==== Proof.RefValue.lean ====
/-
  The reference computes `rowZero`.

  The index is the constant 0. It is not negative, so `jnp.take`'s wrap keeps it: every start index the gather reads
  is 0. It lies in `[0, 4095]`, so the in-range test is 1 and the final select keeps the gathered entry everywhere
  (the filler value is never chosen). The gather of whole rows reads, at `(b, 0, d)`, the operand at row
  `min start 4095 = 0`: entry `(b, 0, d)` of `u`. Hence the reference's result term is `rowZero u`, at any float
  instance: no arithmetic touches the entries.
-/
import proofs.«218891_g41781441856021_cont_8to1_b_1506_9_alg».proof.Proof.RefRun
import proofs.«218891_g41781441856021_cont_8to1_b_1506_9_alg».proof.Proof.RowZero
import proofs.«218891_g41781441856021_cont_8to1_b_1506_9_alg».proof.Proof.LibRowScatter
import proofs.«218891_g41781441856021_cont_8to1_b_1506_9_alg».proof.Proof.LibAllTrue
import proofs.«218891_g41781441856021_cont_8to1_b_1506_9_alg».proof.Proof.LibSqueezeMiddle
import Idealize.ShloMosaic.Lib.ValueIdx

noncomputable section

namespace Cert.Proof.RefValue

open Cert.ReferenceIdeal Cert.ReferenceIdeal.Gen Idealize.ShloMosaic Idealize.ShloMosaic.ValueIdx
open Cert.RowZero Cert.LibRows Cert.LibAllTrue Cert.LibSqueezeMiddle Cert.Proof.RefRun

variable {F : FTy → Type} [FloatOps F]

/-- Every start index is 0: the index 0 is not below 0, so the wrap's select keeps it. -/
theorem starts_zero (k : S1x1.Idx) : starts k = 0#32 := by
  show Scalar.select (IntOp.cmpi .slt 0#32 0#32) (IntOp.addi 0#32 4096#32) 0#32 = 0#32
  decide

/-- The start index is in range: `0 ≤ 0` and `0 ≤ 4095`, at the one coordinate the test folds over. -/
theorem inRange_one (k : S1.Idx) : inRange k = 1#1 := by
  unfold inRange
  refine reduce_andi_of_all _ _ _ _ (fun _ => rfl) (fun i => ?_) k
  show IntOp.andi (IntOp.cmpi .sge (starts i) 0#32) (IntOp.cmpi .sle (starts i) 4095#32) = 1#1
  rw [starts_zero]
  decide

/-- The gather reads row 0: at `(b, 0, d)` it is `u`'s entry `(b, 0, d)`. -/
theorem gathered (u : (⟨S4x4096x2048, .f32⟩ : BufTy).Contents (Elt F)) (b : Fin 4) (d : Fin 2048) :
    Host.gather gather_S4x4096x2048_S1x1_S4x1x2048_02_1_n_n_1_1_412048 u starts (ix3 b (⟨0, Nat.one_pos⟩ : Fin 1) d)
      = u (ix3 b (⟨0, by decide⟩ : Fin 4096) d) := by
  refine (gather_rows_apply (B := 4) (N := 4096) (D := 2048) (M := 1) (by decide)
    gather_S4x4096x2048_S1x1_S4x1x2048_02_1_n_n_1_1_412048_wf u starts b (⟨0, Nat.one_pos⟩ : Fin 1) d).trans ?_
  refine congrArg u (funext fun a => Fin.ext ?_)
  have h0 : starts (ix2 (⟨0, Nat.one_pos⟩ : Fin 1) (0 : Fin 1)) = 0#32 := starts_zero _
  match a with
  | ⟨0, _⟩ => rfl
  | ⟨1, _⟩ =>
    show min (starts (ix2 (⟨0, Nat.one_pos⟩ : Fin 1) (0 : Fin 1))).toInt.toNat (4096 - 1) = 0
    rw [h0]; rfl
  | ⟨2, _⟩ => rfl

/-- The reference's result term is `rowZero` of its argument. -/
theorem out_eq_rowZero (u : (⟨S4x4096x2048, .f32⟩ : BufTy).Contents (Elt F)) : out (F := F) u = rowZero u := by
  funext j
  obtain ⟨b, d, rfl⟩ : ∃ (b : Fin 4) (d : Fin 2048), j = ix3 b (⟨0, Nat.one_pos⟩ : Fin 1) d :=
    ⟨j 0, j 2, eq_ix3_mid_zero (a := 4) (b := 2048) j⟩
  have hmask : broadcastInDim S4x1x2048 ![1] bcast_S1_S4x1x2048_1 inRange (ix3 b (⟨0, Nat.one_pos⟩ : Fin 1) d) = 1#1 :=
    inRange_one _
  show Scalar.select (broadcastInDim S4x1x2048 ![1] bcast_S1_S4x1x2048_1 inRange (ix3 b (⟨0, Nat.one_pos⟩ : Fin 1) d))
    (Host.gather gather_S4x4096x2048_S1x1_S4x1x2048_02_1_n_n_1_1_412048 u starts (ix3 b (⟨0, Nat.one_pos⟩ : Fin 1) d))
    (broadcastInDim S4x1x2048 ![] bcast_S_S4x1x2048 (constant (F := F) S_ .f32 0x7FC00000#32) (ix3 b (⟨0, Nat.one_pos⟩ : Fin 1) d)) = _
  rw [hmask, select_one, gathered]
  rfl

end Cert.Proof.RefValue

end
-- ==== Proof.lean ====
/-
  The kernel copies row 0 of every batch; the reference takes index 0 along the same axis: one function.

  `u` is an array over (batch, position, feature) of extents `[4, 4096, 2048]`; both programs return the array over
  (batch, one position, feature) of extents `[4, 1, 2048]` whose entry `(b, 0, d)` is `u`'s entry `(b, 0, d)`
  (`rowZero`, Proof/RowZero.lean).
  * The kernel (Proof/KernelRun.lean as printed, Proof/KernelIdealRun.lean idealized, each stated for any float
    instance): the TensorCore starts one SparseCore's sequencer, which issues one
    copy of the rows-0 slab of `u` onto the whole result array on its own DMA semaphore and waits for it. The run ends
    with `u` unchanged and the result at `rowZero u` (Proof/KernelCopy.lean, Proof/KernelIdealCopy.lean: what the copy
    leaves). Each frame is that run with the value dropped.
  * The reference (Proof/RefRun.lean): a straight line of host operations — the index `0` wrapped, tested in range,
    gathered, and selected against a filler — whose result term is `rowZero u` (Proof/RefValue.lean): the index is
    neither negative nor out of range, so the gathered row 0 is kept everywhere.
  No arithmetic is done on the entries, so the two results agree at every float instance, in particular as extended
  reals; the precondition (finite inputs) is never opened. The idealization rewrote nothing, so there is nothing to
  preserve beyond the program text itself.
-/
import proofs.«218891_g41781441856021_cont_8to1_b_1506_9_alg».proof.Defs
import proofs.«218891_g41781441856021_cont_8to1_b_1506_9_alg».proof.Proof.Gen.Kernel
import proofs.«218891_g41781441856021_cont_8to1_b_1506_9_alg».proof.Proof.Gen.KernelIdeal
import proofs.«218891_g41781441856021_cont_8to1_b_1506_9_alg».proof.Proof.Gen.ReferenceIdeal
import proofs.«218891_g41781441856021_cont_8to1_b_1506_9_alg».proof.Proof.Gen.Pre_finite_inputs
import proofs.«218891_g41781441856021_cont_8to1_b_1506_9_alg».proof.Proof.KernelRun
import proofs.«218891_g41781441856021_cont_8to1_b_1506_9_alg».proof.Proof.KernelIdealRun
import proofs.«218891_g41781441856021_cont_8to1_b_1506_9_alg».proof.Proof.RefRun
import proofs.«218891_g41781441856021_cont_8to1_b_1506_9_alg».proof.Proof.RefValue

noncomputable section

namespace Cert.Proof

open Idealize.ShloMosaic Idealize.SL.Sem

/-- The printed kernel's run with the value dropped. -/
theorem frame_kernel : Cert.frame_Kernel := fun m ρ _ =>
  (θ_run Cert.Kernel.defs _ _).mono (fun _ h c => (h c).2) (KernelRun.run_main (F := Bits) m ρ)

/-- The idealized kernel's run with the value dropped. -/
theorem frame_kernelIdeal : Cert.frame_KernelIdeal := fun m ρ _ =>
  (θ_run Cert.KernelIdeal.defs _ _).mono (fun _ h c => (h c).2) (KernelIdealRun.run_main (F := Ideal) m ρ)

/-- The reference's run with the value dropped. -/
theorem frame_referenceIdeal : Cert.frame_ReferenceIdeal := fun m ρ _ =>
  (θ_run Cert.ReferenceIdeal.defs _ _).mono (fun _ h c => (h c).2) (RefRun.run (F := Ideal) m ρ)

/-- The idealization rewrote no operation. -/
theorem preserves : Cert.preserves_Kernel_KernelIdeal := trivial

/-- Both runs end with the result at `rowZero` of the same argument. -/
theorem algebraic : Cert.algebraic_KernelIdeal_ReferenceIdeal := by
  intro m ρ m' ρ' _ hagree
  refine ⟨fun c => Cert.RowZero.rowZero (m ((c.tc : Thread Cert.KernelIdeal.nD Cert.KernelIdeal.τ).loc Cert.KernelIdeal.main_arg0)),
    (θ_run Cert.KernelIdeal.defs _ _).mono (fun _ h c => h c) (KernelIdealRun.run_main (F := Ideal) m ρ), ?_⟩
  refine (θ_run Cert.ReferenceIdeal.defs _ _).mono (fun _ h c => ⟨(h c).1.trans ?_, (h c).2⟩) (RefRun.run (F := Ideal) m' ρ')
  rw [RefValue.out_eq_rowZero, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
